-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  main_v3
-- ==== Kernel.lean ====
abbrev S4x4096x128 : Shape := ⟨3, ![4, 4096, 128]⟩
abbrev S1x4096x128 : Shape := ⟨3, ![1, 4096, 128]⟩
abbrev S4096x128 : Shape := ⟨2, ![4096, 128]⟩
abbrev S128x128 : Shape := ⟨2, ![128, 128]⟩

abbrev nBuf : Space → Nat
  | .hbm => 2
  | .vmem => 4
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  shapeCasts_S4096x128_S1x4096x128 : S4096x128.ShapeCasts S1x4096x128
  dot_S4096x128_S4096x128_S128x128_0_0_1_1_n_n_wf : DotDims.WF S4096x128 S4096x128 S128x128 [0] [0] [1] [1] [] []
  dot_S4096x128_S128x128_S4096x128_1_0_0_1_n_n_wf : DotDims.WF S4096x128 S128x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S4x4096x128.size a
  hwx0_1 : ∀ i : grid0.Coords, EltTy.bits .f32 = 32 ∨ (Rect.block (s := S4x4096x128) S1x4096x128.size (cc0_transform_1 i) (hinb0_1 i)).WholeWords (EltTy.packing .f32)

variable [Facts₀]

def dot_S4096x128_S4096x128_S128x128_0_0_1_1_n_n : DotDims S4096x128 S4096x128 S128x128 where
  lhsContracting := [0]
  rhsContracting := [0]
  lhsNonContracting := [1]
  rhsNonContracting := [1]
  lhsBatch := []
  rhsBatch := []
  wf := dot_S4096x128_S4096x128_S128x128_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S4x4096x4096 : Shape := ⟨3, ![4, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x4096, .f32⟩
  | .hbm, ⟨2, _⟩ => ⟨S4x4096x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.LibMatmulAssoc.lean ====
/-
  Associativity of a triple matrix product, entry by entry, on the extended reals.

  For a row `a`, a matrix `y` and a column `z`,
      ∑ k, a k · (∑ s, y s k · z s)  =  ∑ s, (∑ k, a k · y s k) · z s :
  the left side multiplies `a` into the product `yᵀ · z`, the right side multiplies the product `a · yᵀ` into `z`.
  Over the reals this is distributivity, an exchange of the two finite sums, and associativity of each triple
  product. On the extended reals a product does not distribute over a sum of opposite infinities, so the law is
  stated for families of real numbers and carried through the coercion, which commutes with finite sums.
-/
import Mathlib.Data.EReal.Inv
import Mathlib.Algebra.BigOperators.Group.Finset.Basic
import Mathlib.Algebra.BigOperators.Ring.Finset

noncomputable section

namespace Cert.LibMatmulAssoc

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: a row `a` against the products of the columns of `y` with `z` is the products of `a` with the
    rows of `y`, each weighted by `z`. Distribute both ways, exchange the sums, reassociate each triple product. -/
theorem regroup_real {S K : Type*} [Fintype S] [Fintype K] (a : K → ℝ) (y : S → K → ℝ) (z : S → ℝ) :
    ∑ k, a k * ∑ s, y s k * z s = ∑ s, (∑ k, a k * y s k) * z s := by
  simp only [Finset.mul_sum, Finset.sum_mul]
  rw [Finset.sum_comm]
  exact Finset.sum_congr rfl fun s _ => Finset.sum_congr rfl fun k _ => (mul_assoc _ _ _).symm

/-- The same on the extended reals, for families every member of which is a real number: `a · (yᵀ · z) = (a · yᵀ) · z`
    entry by entry, over any finite index types. -/
theorem regroup {S K : Type*} [Fintype S] [Fintype K] (a : K → EReal) (y : S → K → EReal) (z : S → EReal)
    (ha : ∀ k, ∃ r : ℝ, a k = r) (hy : ∀ s k, ∃ r : ℝ, y s k = r) (hz : ∀ s, ∃ r : ℝ, z s = r) :
    ∑ k, a k * ∑ s, y s k * z s = ∑ s, (∑ k, a k * y s k) * z s := by
  choose a' ha using ha
  choose y' hy using hy
  choose z' hz using hz
  simp only [ha, hy, hz, ← EReal.coe_mul, ← coe_sum]
  exact congrArg _ (regroup_real a' y' z')

end Cert.LibMatmulAssoc

end
-- ==== Proof.GramLaw.lean ====
/-
  Bilinear self-attention with no softmax and one array in all three roles: for every batch `b`,
      out[b] = (x[b] · x[b]ᵀ) · x[b].
  Matrix multiplication associates, so the same array is also
      out[b] = x[b] · (x[b]ᵀ · x[b]),
  where the inner factor is the small Gram matrix  g[k, d] = ∑ s, x[b, s, k] · x[b, s, d].
  Entry by entry the two arrangements are
      ∑ s, (∑ k, x[b,t,k] · x[b,s,k]) · x[b,s,d]      and      ∑ k, x[b,t,k] · (∑ s, x[b,s,k] · x[b,s,d]),
  and passing from one to the other distributes a factor over a finite sum and exchanges the two sums. On the
  extended reals a product does not distribute over a sum that mixes the two infinities, so the identity is stated
  for arrays whose every entry is a real number; there it is the associativity law of LibMatmulAssoc, with row `t` of
  the batch as the row, the batch as the matrix, and column `d` of the batch as the column.
-/
import proofs.«102442_j52261162058329_2_alg».proof.Proof.LibMatmulAssoc
import Idealize.ShloMosaic.PureOps.Ideal
import Idealize.ShloMosaic.Lib.ValueIdx

noncomputable section

namespace Cert.GramLaw

open Idealize.ShloMosaic Idealize.ShloMosaic.ValueIdx

/-- An f32[4, 4096, 128] array read as extended reals. -/
abbrev Arr : Type := (⟨3, ![4, 4096, 128]⟩ : Shape).Idx → EReal

/-- Entry (b, t, d) through the Gram matrix: row `t` of `x[b]` against column `d` of `x[b]ᵀ · x[b]`. -/
def viaGram (x : Arr) (b : Fin 4) (t : Fin 4096) (d : Fin 128) : EReal :=
  ∑ k : Fin 128, x (ix3 b t k) * ∑ s : Fin 4096, x (ix3 b s k) * x (ix3 b s d)

/-- Entry (b, t, d) through the scores: row `t` of `x[b] · x[b]ᵀ` against column `d` of `x[b]`. -/
def viaScores (x : Arr) (b : Fin 4) (t : Fin 4096) (d : Fin 128) : EReal :=
  ∑ s : Fin 4096, (∑ k : Fin 128, x (ix3 b t k) * x (ix3 b s k)) * x (ix3 b s d)

/-- For an array of real numbers the two arrangements agree at every entry. -/
theorem viaGram_eq_viaScores (x : Arr) (hx : ∀ i, ∃ r : ℝ, x i = r) (b : Fin 4) (t : Fin 4096) (d : Fin 128) :
    viaGram x b t d = viaScores x b t d :=
  Cert.LibMatmulAssoc.regroup (fun k => x (ix3 b t k)) (fun s k => x (ix3 b s k)) (fun s => x (ix3 b s d))
    (fun _ => hx _) (fun _ _ => hx _) (fun _ => hx _)

/-- The whole output array in the scores arrangement, index by index. -/
def attention (x : Arr) : Arr := fun i => viaScores x (i 0) (i 1) (i 2)

/-- The whole output array in the Gram arrangement, index by index. -/
def gramProduct (x : Arr) : Arr := fun i => viaGram x (i 0) (i 1) (i 2)

theorem attention_ix3 (x : Arr) (b : Fin 4) (t : Fin 4096) (d : Fin 128) :
    attention x (ix3 b t d) = viaScores x b t d := rfl

theorem gramProduct_ix3 (x : Arr) (b : Fin 4) (t : Fin 4096) (d : Fin 128) :
    gramProduct x (ix3 b t d) = viaGram x b t d := rfl

/-- For an array of real numbers the two arrangements are one array. -/
theorem gramProduct_eq_attention (x : Arr) (hx : ∀ i, ∃ r : ℝ, x i = r) : gramProduct x = attention x :=
  funext fun i => viaGram_eq_viaScores x hx (i 0) (i 1) (i 2)

end Cert.GramLaw

end
-- ==== Proof.KernelEntry.lean ====
/-
  The kernel body's arithmetic, read at one entry of its output block.

  The body loads its [1, 4096, 128] block `x`, drops the leading unit axis, and forms two products into zero
  accumulators: the Gram matrix, contracting the 4096 rows of the block against themselves,
      g[p, q] = ∑ s, x[s, p] · x[s, q],
  and then the block against it,
      out[t, d] = ∑ k, x[t, k] · g[k, d].
  The changes of float format between them are the identity on extended reals. So at (t, d) the stored value is
      ∑ k, x[t, k] · ∑ s, x[s, k] · x[s, d].
-/
import proofs.«102442_j52261162058329_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Entry

open Cert.KernelIdeal Cert.KernelIdeal.Gen Idealize.ShloMosaic Idealize.ShloMosaic.ValueIdx

/-! ## The product that contracts the rows of both operands: `aᵀ · b` -/

theorem gram_lhs_row (j : S128x128.Idx) (q : dot_S4096x128_S4096x128_S128x128_0_0_1_1_n_n.contr.Idx) :
    (dot_S4096x128_S4096x128_S128x128_0_0_1_1_n_n.lhsIdx j q 0).val = (q ⟨0, by decide⟩).val :=
  dot_S4096x128_S4096x128_S128x128_0_0_1_1_n_n.lhsIdx_val_of_single rfl j q
theorem gram_lhs_col (j : S128x128.Idx) (q : dot_S4096x128_S4096x128_S128x128_0_0_1_1_n_n.contr.Idx) :
    (dot_S4096x128_S4096x128_S128x128_0_0_1_1_n_n.lhsIdx j q 1).val = (j 0).val := by
  unfold DotDims.lhsIdx
  rw [dif_neg (show ¬(1 : Fin S4096x128.rank) ∈ dot_S4096x128_S4096x128_S128x128_0_0_1_1_n_n.lhsBatch by decide), dif_pos (show (1 : Fin S4096x128.rank) ∈ dot_S4096x128_S4096x128_S128x128_0_0_1_1_n_n.lhsNonContracting by decide)]
  rfl
theorem gram_rhs_row (j : S128x128.Idx) (q : dot_S4096x128_S4096x128_S128x128_0_0_1_1_n_n.contr.Idx) :
    (dot_S4096x128_S4096x128_S128x128_0_0_1_1_n_n.rhsIdx j q 0).val = (q ⟨0, by decide⟩).val :=
  dot_S4096x128_S4096x128_S128x128_0_0_1_1_n_n.rhsIdx_val_of_single rfl j q
theorem gram_rhs_col (j : S128x128.Idx) (q : dot_S4096x128_S4096x128_S128x128_0_0_1_1_n_n.contr.Idx) :
    (dot_S4096x128_S4096x128_S128x128_0_0_1_1_n_n.rhsIdx j q 1).val = (j 1).val := by
  unfold DotDims.rhsIdx
  rw [dif_neg (show ¬(1 : Fin S4096x128.rank) ∈ dot_S4096x128_S4096x128_S128x128_0_0_1_1_n_n.rhsBatch by decide), dif_pos (show (1 : Fin S4096x128.rank) ∈ dot_S4096x128_S4096x128_S128x128_0_0_1_1_n_n.rhsNonContracting by decide)]
  rfl

/-- Into a zero accumulator, the product contracting axis 0 of both operands is, at (p, q), the sum over the 4096
    rows `s` of `a[s, p] · b[s, q]`. -/
theorem gram_matmul_apply (a b : FVec Ideal S4096x128 .bf16) (p q : Fin 128) :
    matmul dot_S4096x128_S4096x128_S128x128_0_0_1_1_n_n none a b (constant S128x128 .f32 0x00000000#32) (ix2 p q)
      = ∑ s : Fin 4096, a (ix2 s p) * b (ix2 s q) := by
  simp only [matmul]
  rw [Ideal.matmul_constant_zero_apply, ← Equiv.sum_comp (contrEquiv1 dot_S4096x128_S4096x128_S128x128_0_0_1_1_n_n 4096 rfl rfl).symm]
  refine Finset.sum_congr rfl fun s _ => ?_
  have hs := contrEquiv1_symm_val dot_S4096x128_S4096x128_S128x128_0_0_1_1_n_n 4096 rfl rfl s
  have el : dot_S4096x128_S4096x128_S128x128_0_0_1_1_n_n.lhsIdx (ix2 p q) ((contrEquiv1 dot_S4096x128_S4096x128_S128x128_0_0_1_1_n_n 4096 rfl rfl).symm s) = ix2 s p := funext fun c => Fin.ext (by
    match c with
    | ⟨0, _⟩ => exact (gram_lhs_row _ _).trans hs
    | ⟨1, _⟩ => exact gram_lhs_col _ _)
  have er : dot_S4096x128_S4096x128_S128x128_0_0_1_1_n_n.rhsIdx (ix2 p q) ((contrEquiv1 dot_S4096x128_S4096x128_S128x128_0_0_1_1_n_n 4096 rfl rfl).symm s) = ix2 s q := funext fun c => Fin.ext (by
    match c with
    | ⟨0, _⟩ => exact (gram_rhs_row _ _).trans hs
    | ⟨1, _⟩ => exact gram_rhs_col _ _)
  rw [el, er]

/-! ## The plain product `a · g` -/

theorem plain_lhs_row (j : S4096x128.Idx) (q : dot_S4096x128_S128x128_S4096x128_1_0_0_1_n_n.contr.Idx) :
    (dot_S4096x128_S128x128_S4096x128_1_0_0_1_n_n.lhsIdx j q 0).val = (j 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem plain_lhs_col (j : S4096x128.Idx) (q : dot_S4096x128_S128x128_S4096x128_1_0_0_1_n_n.contr.Idx) :
    (dot_S4096x128_S128x128_S4096x128_1_0_0_1_n_n.lhsIdx j q 1).val = (q ⟨0, by decide⟩).val :=
  dot_S4096x128_S128x128_S4096x128_1_0_0_1_n_n.lhsIdx_val_of_single rfl j q
theorem plain_rhs_row (j : S4096x128.Idx) (q : dot_S4096x128_S128x128_S4096x128_1_0_0_1_n_n.contr.Idx) :
    (dot_S4096x128_S128x128_S4096x128_1_0_0_1_n_n.rhsIdx j q 0).val = (q ⟨0, by decide⟩).val :=
  dot_S4096x128_S128x128_S4096x128_1_0_0_1_n_n.rhsIdx_val_of_single rfl j q
theorem plain_rhs_col (j : S4096x128.Idx) (q : dot_S4096x128_S128x128_S4096x128_1_0_0_1_n_n.contr.Idx) :
    (dot_S4096x128_S128x128_S4096x128_1_0_0_1_n_n.rhsIdx j q 1).val = (j 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- Into a zero accumulator, the [4096, 128] by [128, 128] product is, at (t, d), the sum over `k` of
    `a[t, k] · g[k, d]`. -/
theorem plain_matmul_apply (a : FVec Ideal S4096x128 .bf16) (g : FVec Ideal S128x128 .bf16) (t : Fin 4096) (d : Fin 128) :
    matmul dot_S4096x128_S128x128_S4096x128_1_0_0_1_n_n none a g (constant S4096x128 .f32 0x00000000#32) (ix2 t d)
      = ∑ k : Fin 128, a (ix2 t k) * g (ix2 k d) := by
  simp only [matmul]
  rw [Ideal.matmul_constant_zero_apply, ← Equiv.sum_comp (contrEquiv1 dot_S4096x128_S128x128_S4096x128_1_0_0_1_n_n 128 rfl rfl).symm]
  refine Finset.sum_congr rfl fun k _ => ?_
  have hk := contrEquiv1_symm_val dot_S4096x128_S128x128_S4096x128_1_0_0_1_n_n 128 rfl rfl k
  have el : dot_S4096x128_S128x128_S4096x128_1_0_0_1_n_n.lhsIdx (ix2 t d) ((contrEquiv1 dot_S4096x128_S128x128_S4096x128_1_0_0_1_n_n 128 rfl rfl).symm k) = ix2 t k := funext fun c => Fin.ext (by
    match c with
    | ⟨0, _⟩ => exact plain_lhs_row _ _
    | ⟨1, _⟩ => exact (plain_lhs_col _ _).trans hk)
  have er : dot_S4096x128_S128x128_S4096x128_1_0_0_1_n_n.rhsIdx (ix2 t d) ((contrEquiv1 dot_S4096x128_S128x128_S4096x128_1_0_0_1_n_n 128 rfl rfl).symm k) = ix2 k d := funext fun c => Fin.ext (by
    match c with
    | ⟨0, _⟩ => exact (plain_rhs_row _ _).trans hk
    | ⟨1, _⟩ => exact plain_rhs_col _ _)
  rw [el, er]

/-! ## The stored value at an entry -/

/-- What the body stores at (0, t, d) of its output block, from the loaded block `x`: row `t` of the block against
    column `d` of the block's Gram matrix. -/
theorem stored_apply (x : Vec Ideal S1x4096x128 .f32) (u : Fin 1) (t : Fin 4096) (d : Fin 128) :
    k0_pay1 (F := Ideal) x (ix3 u t d)
      = ∑ k : Fin 128, x (ix3 (0 : Fin 1) t k) * ∑ s : Fin 4096, x (ix3 (0 : Fin 1) s k) * x (ix3 (0 : Fin 1) s d) := by
  unfold k0_pay1
  refine (shapeCast_ab_1ab_apply _ _ u t d).trans ?_
  refine (plain_matmul_apply _ _ t d).trans ?_
  refine Finset.sum_congr rfl fun k _ => ?_
  refine congrArg₂ (· * ·) (shapeCast_1ab_ab_apply x _ t k) ?_
  refine (gram_matmul_apply _ _ k d).trans ?_
  refine Finset.sum_congr rfl fun s _ => ?_
  exact congrArg₂ (· * ·) (shapeCast_1ab_ab_apply x _ s k) (shapeCast_1ab_ab_apply x _ s d)

end Cert.KernelIdeal.Entry

end
-- ==== Proof.KernelWhole.lean ====
/-
  From the kernel's blocks to its whole output array.

  The grid has one point per batch. At point `t` the input window stages the block  x[t, :, :]  and the output
  window writes back the block  out[t, :, :]; both index maps send the point `t` to the block index (t, 0, 0). What
  the body stores at (0, r, d) of its block is row `r` of the staged block against column `d` of the block's Gram
  matrix, which is entry (t, r, d) of the Gram arrangement of the whole input. The four blocks tile the output
  array, so after the run the array is that arrangement everywhere.
-/
import proofs.«102442_j52261162058329_2_alg».proof.Proof.Gen.KernelIdeal.Value
import proofs.«102442_j52261162058329_2_alg».proof.Proof.KernelEntry
import proofs.«102442_j52261162058329_2_alg».proof.Proof.GramLaw

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- Both windows' index maps send grid point `t` to the block index (t, 0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The batch a grid point works on. -/
abbrev batchOf (t : Fin cfg0.N) : Fin 4 := ⟨t.val, lt_of_lt_of_eq t.isLt N_0⟩

/-- Entry (0, s, k) of the input block staged at point `t` is entry (t, s, k) of the input array. -/
theorem input_block (c : Dev nD) (t : Fin cfg0.N) (s : Fin 4096) (k : Fin 128) :
    iblk m c 0 t (ix3 (0 : Fin 1) s k) = V m c main_arg0 (ix3 (batchOf t) s k) := by
  obtain ⟨e0, e1, e2, e3, e4, e5⟩ := index_facts t
  show V m c main_arg0 (((cfg0.win 0).blk t).view.emb (ix3 (0 : Fin 1) s k)) = _
  refine congrArg _ (funext fun a => Fin.ext ?_)
  match a with
  | ⟨0, _⟩ => show win0_0.index t (0 : Fin 3) * 1 + 1 * 0 = t.val; omega
  | ⟨1, _⟩ => show win0_0.index t (1 : Fin 3) * 4096 + 1 * s.val = s.val; omega
  | ⟨2, _⟩ => show win0_0.index t (2 : Fin 3) * 128 + 1 * k.val = k.val; omega

/-- Entry (u, r, d) of the output block written back at point `t` sits at (t, r, d) of the output array. -/
theorem output_index (t : Fin cfg0.N) (u : Fin 1) (r : Fin 4096) (d : Fin 128) :
    ((cfg0.win 1).blk t).view.emb (ix3 u r d) = ix3 (batchOf t) r d := by
  obtain ⟨e0, e1, e2, e3, e4, e5⟩ := index_facts t
  have hu : u.val = 0 := by omega
  refine funext fun a => Fin.ext ?_
  match a with
  | ⟨0, _⟩ => show win0_1.index t (0 : Fin 3) * 1 + 1 * u.val = t.val; omega
  | ⟨1, _⟩ => show win0_1.index t (1 : Fin 3) * 4096 + 1 * r.val = r.val; omega
  | ⟨2, _⟩ => show win0_1.index t (2 : Fin 3) * 128 + 1 * d.val = d.val; omega

/-- What the body stores at an entry of its block at point `t` is the Gram arrangement of the whole input at the
    entry's place in the output array. -/
theorem point_value (c : Dev nD) (t : Fin cfg0.N) (j : S1x4096x128.Idx) :
    k0_pay1 (F := Ideal) (iblk m c 0 t) j
      = Cert.GramLaw.gramProduct (V m c main_arg0) (((cfg0.win 1).blk t).view.emb j) := by
  obtain ⟨u, r, d, rfl⟩ : ∃ (u : Fin 1) (r : Fin 4096) (d : Fin 128), j = ix3 u r d := ⟨j 0, j 1, j 2, eq_ix3 j⟩
  refine (Cert.KernelIdeal.Entry.stored_apply (iblk m c 0 t) u r d).trans ?_
  refine Eq.trans ?_ (congrArg (Cert.GramLaw.gramProduct (V m c main_arg0)) (output_index t u r d)).symm
  show _ = Cert.GramLaw.viaGram (V m c main_arg0) (batchOf t) r d
  unfold Cert.GramLaw.viaGram
  refine Finset.sum_congr rfl fun k _ => ?_
  exact congrArg₂ (· * ·) (input_block m c t r k)
    (Finset.sum_congr rfl fun s _ => congrArg₂ (· * ·) (input_block m c t s k) (input_block m c t s d))

/-- What point `t` writes back is block `t` of the Gram arrangement of the input array. -/
theorem flushed_eq (c : Dev nD) (t : Fin cfg0.N) :
    (dats m 0 c).flushed 1 t
      = ((cfg0.win 1).blk t).view.read (Elt Ideal) (Cert.GramLaw.gramProduct (V m c main_arg0)) := by
  rw [Cert.KernelIdeal.Value.flushed1]
  unfold out0_1
  rw [View.canon_unit_zero zero_offsets]
  simp only [View.ld_unit_zero (S := S1x4096x128) zero_offsets]
  funext j
  exact point_value m c t j

/-- An index of the output array is in point `t`'s block iff each coordinate is in the block's range on its axis. -/
theorem mem_blk (t : Fin cfg0.N) (i : S4x4096x128.Idx) :
    i ∈ ((cfg0.win 1).blk t).view.set ↔ ∀ a : Fin 3, win0_1.index t a * S1x4096x128.size a ≤ (i a).val ∧ (i a).val < win0_1.index t a * S1x4096x128.size a + S1x4096x128.size a := by
  show i ∈ ((View.whole main_v0).slice (win0_1.rect t)).set ↔ _
  rw [View.set_slice_whole, Rect.mem_set_unit]
  exact Iff.rfl

/-- Every index of the output array lies in the block of the point named by its batch coordinate. -/
theorem cover (i : S4x4096x128.Idx) :
    ∃ t : Fin cfg0.N, (cfg0.win 1).flush t = true ∧ i ∈ ((cfg0.win 1).blk t).view.set := by
  have hi0 : (i 0).val < 4 := (i 0).isLt
  have hi1 : (i 1).val < 4096 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨e0, e1, e2, e3, e4, e5⟩ := index_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 4096 ≤ (i 1).val ∧ (i 1).val < win0_1.index t (1 : Fin 3) * 4096 + 4096; omega
  | ⟨2, _⟩ => show win0_1.index t (2 : Fin 3) * 128 ≤ (i 2).val ∧ (i 2).val < win0_1.index t (2 : Fin 3) * 128 + 128; omega

/-- After the run the output array is the Gram arrangement of the input array. -/
theorem final (c : Dev nD) :
    (dats m 0 c).arrAt 1 cfg0.N = Cert.GramLaw.gramProduct (m ((c : Thread nD τ).loc main_arg0)) :=
  (dats m 0 c).arrAt_eq_of_cover 1 (Cert.GramLaw.gramProduct (V m c main_arg0)) (fun t _ => flushed_eq m c t) cover

/-- The kernel's run: the result array ends at the Gram arrangement of the argument, the argument unchanged. -/
theorem run : θ_run defs (onTc (τ := τ) (main (F := Ideal))) ⟨m, fun _ => 0, ρ⟩ fun r => ∀ c : Dev nD,
      r.2.mem ((c : Thread nD τ).loc main_v0) = Cert.GramLaw.gramProduct (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.Whole

end
-- ==== Proof.ReferenceEntry.lean ====
/-
  The reference, read at one entry of its result.

  The reference forms the scores  sc[b, t, s] = ∑ k, x[b, t, k] · x[b, s, k]  for every pair of rows of a batch, and
  then  out[b, t, d] = ∑ s, sc[b, t, s] · x[b, s, d].  Both are batched contractions over one axis, so at (b, t, d)
  the result is the double sum in the scores arrangement.
-/
import proofs.«102442_j52261162058329_2_alg».proof.Proof.Gen.ReferenceIdeal.Read
import proofs.«102442_j52261162058329_2_alg».proof.Proof.GramLaw

noncomputable section

namespace Cert.ReferenceIdeal.Entry

open Cert.ReferenceIdeal Cert.ReferenceIdeal.Gen Cert.ReferenceIdeal.Read Idealize.ShloMosaic Idealize.ShloMosaic.ValueIdx

/-- The left factor of a score: entry `k` of row `t` of batch `b`. -/
theorem score_left (b : Fin 4) (t : Fin 4096) (d : Fin 128) (s : Fin 4096) (k : Fin 128) :
    lidx_main_v0 (lidx_main_v1 (ix3 b t d) s) k = ix3 b t k :=
  funext fun a => by match a with | ⟨0, _⟩ => rfl | ⟨1, _⟩ => rfl | ⟨2, _⟩ => rfl

/-- The right factor of a score: entry `k` of row `s` of the same batch. -/
theorem score_right (b : Fin 4) (t : Fin 4096) (d : Fin 128) (s : Fin 4096) (k : Fin 128) :
    ridx_main_v0 (lidx_main_v1 (ix3 b t d) s) k = ix3 b s k :=
  funext fun a => by match a with | ⟨0, _⟩ => rfl | ⟨1, _⟩ => rfl | ⟨2, _⟩ => rfl

/-- The value a score weighs: entry `d` of row `s` of the same batch. -/
theorem weighted (b : Fin 4) (t : Fin 4096) (d : Fin 128) (s : Fin 4096) :
    ridx_main_v1 (ix3 b t d) s = ix3 b s d :=
  funext fun a => by match a with | ⟨0, _⟩ => rfl | ⟨1, _⟩ => rfl | ⟨2, _⟩ => rfl

/-- The reference's result is the output array in the scores arrangement. -/
theorem result_eq (x : (⟨S4x4096x128, .f32⟩ : BufTy).Contents (Elt Ideal)) :
    val_main_v1 (F := Ideal) x = Cert.GramLaw.attention x := by
  funext i
  obtain ⟨b, t, d, rfl⟩ : ∃ (b : Fin 4) (t : Fin 4096) (d : Fin 128), i = ix3 b t d := ⟨i 0, i 1, i 2, eq_ix3 i⟩
  rw [val_main_v1_apply, Cert.GramLaw.attention_ix3]
  unfold Cert.GramLaw.viaScores
  refine Finset.sum_congr rfl fun s _ => ?_
  rw [val_main_v0_apply, weighted]
  refine congrArg (· * x (ix3 b s d)) (Finset.sum_congr rfl fun k _ => ?_)
  rw [score_left, score_right]

end Cert.ReferenceIdeal.Entry

end
-- ==== Proof.RealEntries.lean ====
/-
  The precondition read entry by entry: every entry of the input is a real number.

  The precondition takes the absolute value of every entry, compares it with +∞, and takes the conjunction of all the
  comparisons. If the conjunction is true then every comparison is, and an extended real whose absolute value is below
  +∞ is neither infinity.
-/
import proofs.«102442_j52261162058329_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Entries

open Cert.Pre_finite_inputs Idealize.ShloMosaic Idealize.ShloMosaic.ValueIdx

/-- The scalar shape has one index. -/
instance : Subsingleton S_.Idx := ⟨fun a b => funext fun d => d.elim0⟩

/-- The f32 word with all exponent bits set and no fraction bit is +∞. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = r := by
  induction x using EReal.rec with
  | bot => simp at h
  | coe r => exact ⟨r, rfl⟩
  | top => simp at h

/-- A comparison word that is 1 records a true strict inequality. -/
theorem lt_of_cmp_olt (a b : EReal) (h : Ideal.cmp .olt a b = 1#1) : a < b := by
  by_contra hn
  have h0 : Ideal.cmp .olt a b = 0#1 := by simp [Ideal.cmp, hn]
  rw [h0] at h
  exact absurd h (by decide)

/-- Under the precondition every entry of the input is a real number. -/
theorem entries_real [Facts] (x : FVec Ideal S4x4096x128 .f32) (h : fn (F := Ideal) x = fun _ => 1#1)
    (i : S4x4096x128.Idx) : ∃ r : ℝ, x i = r := by
  have h0 := congrFun h ix0
  dsimp only [fn] at h0
  have hi := Host.reduce_andi_all _ _ _ _ _ h0 i
  have hc : Ideal.cmp .olt (max (x i) (-(x i))) (Ideal.ofBits .f32 0x7F800000#32) = 1#1 := hi
  rw [ofBits_inf] at hc
  exact real_of_abs_lt_top _ (lt_of_cmp_olt _ _ hc)

end Cert.Pre_finite_inputs.Entries

end
-- ==== Proof.lean ====
/-
  Bilinear self-attention with one array in all three roles and no softmax, over f32[4, 4096, 128]:
      out[b, t, d] = ∑ s, (∑ k, x[b, t, k] · x[b, s, k]) · x[b, s, d].
  The reference computes it in this order, through the [4096, 4096] scores of every batch. The kernel uses the
  associativity of the matrix product: per batch it forms the [128, 128] Gram matrix  g = xᵀ · x  of the staged block
  and stores  x · g, that is
      out[b, t, d] = ∑ k, x[b, t, k] · ∑ s, x[b, s, k] · x[b, s, d].
  On the extended reals, with every float operation exact and every change of float format the identity, each side
  is the double sum it is written as (KernelEntry, KernelWhole for the kernel; ReferenceEntry for the reference).
  The two double sums agree when every entry of `x` is a real number (GramLaw, from the associativity law of
  LibMatmulAssoc): distribute, exchange the sums, reassociate. That every entry is real is what the precondition says (RealEntries), and it is needed: a product does
  not distribute over a sum of opposite infinities.
  The kernel's idealization rewrote no operation, so there is nothing to preserve beyond the program's own text.
-/
import proofs.«102442_j52261162058329_2_alg».proof.Defs
import proofs.«102442_j52261162058329_2_alg».proof.Proof.Gen.Kernel
import proofs.«102442_j52261162058329_2_alg».proof.Proof.Gen.Kernel.Skeleton
import proofs.«102442_j52261162058329_2_alg».proof.Proof.Gen.Kernel.Launch
import proofs.«102442_j52261162058329_2_alg».proof.Proof.Gen.Kernel.Points
import proofs.«102442_j52261162058329_2_alg».proof.Proof.Gen.Kernel.Frame
import proofs.«102442_j52261162058329_2_alg».proof.Proof.Gen.KernelIdeal
import proofs.«102442_j52261162058329_2_alg».proof.Proof.Gen.KernelIdeal.Skeleton
import proofs.«102442_j52261162058329_2_alg».proof.Proof.Gen.KernelIdeal.Launch
import proofs.«102442_j52261162058329_2_alg».proof.Proof.Gen.KernelIdeal.Points
import proofs.«102442_j52261162058329_2_alg».proof.Proof.Gen.KernelIdeal.Frame
import proofs.«102442_j52261162058329_2_alg».proof.Proof.Gen.ReferenceIdeal
import proofs.«102442_j52261162058329_2_alg».proof.Proof.Gen.Pre_finite_inputs
import proofs.«102442_j52261162058329_2_alg».proof.Proof.Gen.KernelIdeal.Value
import proofs.«102442_j52261162058329_2_alg».proof.Proof.Gen.ReferenceIdeal.Run
import proofs.«102442_j52261162058329_2_alg».proof.Proof.Gen.ReferenceIdeal.Read
import proofs.«102442_j52261162058329_2_alg».proof.Proof.GramLaw
import proofs.«102442_j52261162058329_2_alg».proof.Proof.KernelWhole
import proofs.«102442_j52261162058329_2_alg».proof.Proof.ReferenceEntry
import proofs.«102442_j52261162058329_2_alg».proof.Proof.RealEntries
import Idealize.ShloMosaic.Adequacy
import Idealize.ShloMosaic.Init

noncomputable section

namespace Cert.Proof

open Idealize.ShloMosaic Idealize.ShloMosaic.TcCoe Idealize.SL.Sem

/-- The kernel as printed runs, and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its argument as it was: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From agreeing arguments whose entries are all real, the kernel ends at the Gram arrangement and the reference at
    the scores arrangement of the same array, and the two arrangements are one array. -/
theorem algebraic : Cert.algebraic_KernelIdeal_ReferenceIdeal := by
  intro m ρ m' ρ' hpre hagree
  refine ⟨fun c => Cert.GramLaw.attention (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.Whole.run m ρ)
    exact Cert.GramLaw.gramProduct_eq_attention _ (Cert.Pre_finite_inputs.Entries.entries_real _ (hpre c))
  · refine (θ_run Cert.ReferenceIdeal.defs _ _).mono (fun r h c => ⟨?_, (h c).2⟩)
      (Cert.ReferenceIdeal.Value.run (F := Ideal) m' ρ')
    rw [(h c).1, Cert.ReferenceIdeal.Read.val_main_v1_eq, Cert.ReferenceIdeal.Entry.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
